-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S1024x256 : Shape := ⟨2, ![1024, 256]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn {F : FTy → Type} [FloatOps F] (main_arg0 : FVec F S1048576 .f32) (main_arg1 : FVec F S1024x256 .f32) : IVec S_ 1 :=
  let main_v0 : FVec F S1048576 .f32 := Host.absf main_arg0
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1048576 : Shape := ⟨1, ![1048576]⟩
abbrev S1024x256 : Shape := ⟨2, ![1024, 256]⟩
abbrev S4096x256 : Shape := ⟨2, ![4096, 256]⟩
abbrev S4096x256x256 : Shape := ⟨3, ![4096, 256, 256]⟩
abbrev S32x256 : Shape := ⟨2, ![32, 256]⟩
abbrev S32x256x256 : Shape := ⟨3, ![32, 256, 256]⟩
abbrev S1024x1 : Shape := ⟨2, ![1024, 1]⟩
abbrev S1x256 : Shape := ⟨2, ![1, 256]⟩
abbrev S256 : Shape := ⟨1, ![256]⟩
abbrev S256x256 : Shape := ⟨2, ![256, 256]⟩
abbrev S1x256x256 : Shape := ⟨3, ![1, 256, 256]⟩
abbrev S1048576x256 : Shape := ⟨2, ![1048576, 256]⟩

abbrev nBuf : Space → Nat
  | .hbm => 9
  | .vmem => 7
  | .smem => 0
  | _ => 0

abbrev bufTy : (tb : Table) → Fin (tcTables nBuf tb) → BufTy
  | .hbm, ⟨0, _⟩ => ⟨S1048576, .f32⟩
  | .hbm, ⟨1, _⟩ => ⟨S1024x256, .f32⟩
  | .hbm, ⟨2, _⟩ => ⟨S4096x256, .f32⟩
  | .hbm, ⟨3, _⟩ => ⟨S1024x256, .bf16⟩
  | .hbm, ⟨4, _⟩ => ⟨S1024x256, .f32⟩
  | .hbm, ⟨5, _⟩ => ⟨S1024x256, .f32⟩
  | .hbm, ⟨6, _⟩ => ⟨S1024x256, .bf16⟩
  | .hbm, ⟨7, _⟩ => ⟨S4096x256x256, .f32⟩
  | .hbm, ⟨8, _⟩ => ⟨S1048576x256, .f32⟩
  | .local _ .vmem, ⟨0, _⟩ => ⟨S32x256, .f32⟩
  | .local _ .vmem, ⟨1, _⟩ => ⟨S32x256, .f32⟩
  | .local _ .vmem, ⟨2, _⟩ => ⟨S1024x256, .bf16⟩
  | .local _ .vmem, ⟨3, _⟩ => ⟨S1024x256, .bf16⟩
  | .local _ .vmem, ⟨4, _⟩ => ⟨S32x256x256, .f32⟩
  | .local _ .vmem, ⟨5, _⟩ => ⟨S32x256x256, .f32⟩
  | .local _ .vmem, ⟨6, _⟩ => ⟨S32x256, .i32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c32_i32 : BitVec 32 := 32#32
  let v20 : BitVec 32 := Scalar.addi c0_i32 c32_i32
  let c1_i32 : BitVec 32 := 1#32
  ⟨c0_i32, v20, c1_i32⟩
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let v21 : Index := Scalar.indexCast arg6
  let c0_11 : Index := 0#32
  ![v21.toNat, 0]
def k0_off2 (k0_t1 : Fin k0_t1_loop.trips) : Fin 3 → Nat :=
  let c0_i32 : BitVec 32 := 0#32
  let c1_i32 : BitVec 32 := 1#32
  let arg6 : BitVec 32 := Scf.iv c0_i32 c1_i32 k0_t1
  let v34 : Index := Scalar.indexCast arg6
  let c0_14 : Index := 0#32
  let c0_15 : Index := 0#32
  ![v34.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1048576_S4096x256 : S1048576.ShapeCasts S4096x256
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  iota_S1024x1_d0_w32 : S1024x1.Iotas .tc 32 [0]
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S1x256 : 0 < S1x256.numel
  shapeCasts_S1x256_S256 : S1x256.ShapeCasts S256
  shapeCasts_S256_S1x256 : S256.ShapeCasts S1x256
  broadcasts_S1024x1_S1024x256 : S1024x1.Broadcasts S1024x256
  broadcasts_S1x256_S1024x256 : S1x256.Broadcasts S1024x256
  natLt_1_32 : 1 < 32
  h_S1x256x256 : 0 < S1x256x256.numel
  shapeCasts_S1x256x256_S256x256 : S1x256x256.ShapeCasts S256x256
  shapeCasts_S256x256_S1x256x256 : S256x256.ShapeCasts S1x256x256
  shapeCasts_S4096x256x256_S1048576x256 : S4096x256x256.ShapeCasts S1048576x256
  dot_S1024x256_S1024x256_S256x256_0_0_1_1_n_n_wf : DotDims.WF S1024x256 S1024x256 S256x256 [0] [0] [1] [1] [] []
  hrank0 : 0 < grid0.rank
  k0_t1_ok : k0_t1_loop.OK
  k0_off1_inb : ∀ k0_t1 : Fin k0_t1_loop.trips, ∀ a, (k0_off1 k0_t1) a + S1x256.size a ≤ S32x256.size a
  k0_off2_inb : ∀ k0_t1 : Fin k0_t1_loop.trips, ∀ a, (k0_off2 k0_t1) a + S1x256x256.size a ≤ S32x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S4096x256.size a
  hwx0_0 : ∀ i : grid0.Coords, EltTy.bits .f32 = 32 ∨ (Rect.block (s := S4096x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256x256.size a ≤ S4096x256x256.size a
  hwx0_3 : ∀ i : grid0.Coords, EltTy.bits .f32 = 32 ∨ (Rect.block (s := S4096x256x256) S32x256x256.size (cc0_transform_3 i) (hinb0_3 i)).WholeWords (EltTy.packing .f32)

variable [Facts₀]

def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf

abbrev win0_0 : Pipeline.Window sig grid0 :=
  Pipeline.Window.ofSpec (Memref.whole main_v0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576 : Shape := ⟨1, ![1048576]⟩
abbrev S1024x256 : Shape := ⟨2, ![1024, 256]⟩
abbrev S_ : Shape := ⟨0, ![]⟩
abbrev S1048576x1 : Shape := ⟨2, ![1048576, 1]⟩
abbrev S1048576x256 : Shape := ⟨2, ![1048576, 256]⟩

abbrev nBuf : Space → Nat
  | .hbm => 27
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1024x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1048576, .f32⟩
  | .hbm, ⟨6, _⟩ => ⟨S1048576, .f32⟩
  | .hbm, ⟨7, _⟩ => ⟨S_, .f32⟩
  | .hbm, ⟨8, _⟩ => ⟨S1048576, .f32⟩
  | .hbm, ⟨9, _⟩ => ⟨S1048576, .f32⟩
  | .hbm, ⟨10, _⟩ => ⟨S_, .f32⟩
  | .hbm, ⟨11, _⟩ => ⟨S1048576, .f32⟩
  | .hbm, ⟨12, _⟩ => ⟨S1048576, .f32⟩
  | .hbm, ⟨13, _⟩ => ⟨S1048576, .f32⟩
  | .hbm, ⟨14, _⟩ => ⟨S_, .f32⟩
  | .hbm, ⟨15, _⟩ => ⟨S1048576, .f32⟩
  | .hbm, ⟨16, _⟩ => ⟨S1048576, .f32⟩
  | .hbm, ⟨17, _⟩ => ⟨S1048576, .i32⟩
  | .hbm, ⟨18, _⟩ => ⟨S_, .i32⟩
  | .hbm, ⟨19, _⟩ => ⟨S1048576, .i32⟩
  | .hbm, ⟨20, _⟩ => ⟨S1048576, .i1⟩
  | .hbm, ⟨21, _⟩ => ⟨S_, .i32⟩
  | .hbm, ⟨22, _⟩ => ⟨S1048576, .i32⟩
  | .hbm, ⟨23, _⟩ => ⟨S1048576, .i32⟩
  | .hbm, ⟨24, _⟩ => ⟨S1048576, .i32⟩
  | .hbm, ⟨25, _⟩ => ⟨S1048576x1, .i32⟩
  | .hbm, ⟨26, _⟩ => ⟨S1048576x256, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  gather_S1024x256_S1048576x1_S1048576x256_1_0_n_n_0_1_1256_wf : GatherDims.WF S1024x256 S1048576x1 S1048576x256 [1] [0] [] [0] [] 1 ![1, 256]

variable [Facts₀]

def gather_S1024x256_S1048576x1_S1048576x256_1_0_n_n_0_1_1256 : GatherDims S1024x256 S1048576x1 S1048576x256 where
  offsetDims := [1]
  collapsedSliceDims := [0]
  operandBatchingDims := []
  startIndicesBatchingDims := []
  startIndexMap := [0]
  indexVectorDim := 1
  sliceSizes := ![1, 256]
  wf := gather_S1024x256_S1048576x1_S1048576x256_1_0_n_n_0_1_1256_wf

class Facts : Prop extends Facts₀ where

variable [Facts]
-- ==== Proof.Consts.lean ====
/-
  The four float constants both programs spell, as the extended reals their patterns denote: 0, 1, 1024 and 1023.
-/
import Idealize.ShloMosaic.PureOps.Ideal

noncomputable section

namespace Cert.Consts

open Idealize.ShloMosaic

/-- The pattern of `+0.0` denotes `0`. -/
theorem ofBits_zero : Ideal.ofBits .f32 0x00000000#32 = ((0 : ℝ) : EReal) := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `1024.0`, the number of rows of the item table, denotes `1024`. -/
theorem ofBits_1024 : Ideal.ofBits .f32 0x44800000#32 = ((1024 : ℝ) : EReal) := by
  simp [Ideal.ofBits, Ideal.ieee, -EReal.coe_mul]; norm_num

/-- The pattern of `1023.0`, the last row of the item table, denotes `1023`. -/
theorem ofBits_1023 : Ideal.ofBits .f32 0x447FC000#32 = ((1023 : ℝ) : EReal) := by
  simp [Ideal.ofBits, Ideal.ieee, -EReal.coe_mul]; norm_num

end Cert.Consts

end
-- ==== Proof.Spec.lean ====
/-
  The specification both programs meet. A query `x` is clipped to `[0, 1]`, scaled by the number of rows `1024`,
  floored, capped at the last row `1023` and converted to a 32-bit integer: its bucket. The result's row `n` is the
  item table's row at the bucket of query `n`. The bucket always lies in `[0, 1023]`, whatever extended real the query is,
  so reading it as a natural number below `1024` loses nothing.
-/
import Idealize.ShloMosaic.PureOps.Ideal
import Idealize.ShloMosaic.Lib.ValueIdx
import proofs.«160295_j24515673325873_2_alg».proof.Proof.Consts

noncomputable section

namespace Cert.Spec

open Idealize.ShloMosaic Idealize.ShloMosaic.ValueIdx

/-- The bucket of a query: `int32 (min (⌊min 1 (max 0 x) · 1024⌋, 1023))`, the constants as the programs spell them. -/
def bucket (x : EReal) : BitVec 32 :=
  Ideal.fptosi 32 (min (Ideal.liftRound Int.floor
    (min (Ideal.ofBits .f32 0x3F800000#32) (max (Ideal.ofBits .f32 0x00000000#32) x) * Ideal.ofBits .f32 0x44800000#32))
    (Ideal.ofBits .f32 0x447FC000#32))

/-- The clipped query is a real number in `[0, 1]`, whatever the query. -/
theorem clip_real (x : EReal) : ∃ r : ℝ, min ((1 : ℝ) : EReal) (max ((0 : ℝ) : EReal) x) = (r : EReal) ∧ 0 ≤ r ∧ r ≤ 1 := by
  induction x using EReal.rec with
  | bot => exact ⟨0, by simp, le_refl _, by norm_num⟩
  | top => exact ⟨1, by simp, by norm_num, le_refl _⟩
  | coe a =>
    refine ⟨min 1 (max 0 a), ?_, le_min (by norm_num) (le_max_left _ _), min_le_left _ _⟩
    rw [EReal.coe_strictMono.monotone.map_min, EReal.coe_strictMono.monotone.map_max]

/-- The bucket is the integer `min ⌊r · 1024⌋ 1023` for the clipped query `r`, which lies in `[0, 1023]`. -/
theorem bucket_eq (x : EReal) : ∃ z : ℤ, 0 ≤ z ∧ z ≤ 1023 ∧ bucket x = BitVec.ofInt 32 z := by
  obtain ⟨r, hr, h0, h1⟩ := clip_real x
  refine ⟨min ⌊r * 1024⌋ 1023, le_min (Int.floor_nonneg.mpr (by positivity)) (by norm_num), min_le_right _ _, ?_⟩
  unfold bucket
  rw [Consts.ofBits_zero, Consts.ofBits_one, Consts.ofBits_1024, Consts.ofBits_1023, hr, ← EReal.coe_mul,
    Ideal.liftRound_coe, ← EReal.coe_strictMono.monotone.map_min]
  have hv : min ((⌊r * 1024⌋ : ℤ) : ℝ) 1023 = ((min ⌊r * 1024⌋ 1023 : ℤ) : ℝ) := by
    rw [Int.cast_min]; norm_num
  rw [hv]
  have hz0 : (0 : ℤ) ≤ min ⌊r * 1024⌋ 1023 := le_min (Int.floor_nonneg.mpr (by positivity)) (by norm_num)
  have hz1 : min ⌊r * 1024⌋ 1023 ≤ (1023 : ℤ) := min_le_right _ _
  unfold Ideal.fptosi
  rw [Ideal.toIntClamped_coe]
  congr 1
  have hnn : (0 : ℝ) ≤ ((min ⌊r * 1024⌋ 1023 : ℤ) : ℝ) := by exact_mod_cast hz0
  rw [if_pos hnn, Int.floor_intCast]
  norm_num
  omega

/-- The bucket, read as a natural number, is below the number of rows. -/
theorem bucket_lt (x : EReal) : (bucket x).toNat < 1024 := by
  obtain ⟨z, h0, h1, hz⟩ := bucket_eq x
  rw [hz, BitVec.toNat_ofInt]
  omega

/-- Read as a signed integer the bucket is the same natural number: it is never negative. -/
theorem bucket_toInt (x : EReal) : (bucket x).toInt = ((bucket x).toNat : ℤ) := by
  have h := bucket_lt x
  rw [BitVec.toInt_eq_toNat_cond, if_pos (by omega)]

/-- The result: row `n` is the item table's row at the bucket of query `n`. -/
def gathered (q : (⟨1, ![1048576]⟩ : Shape).Idx → EReal) (items : (⟨2, ![1024, 256]⟩ : Shape).Idx → EReal) :
    (⟨2, ![1048576, 256]⟩ : Shape).Idx → EReal :=
  fun i => items (ix2 ⟨(bucket (q (ix1 (i 0)))).toNat, bucket_lt _⟩ (i 1))

end Cert.Spec

end
-- ==== Proof.RefRead.lean ====
/-
  The reference's result read at an index: the composed host operations of the reference program, one stage at a
  time, down to one row of the item table chosen by the floor-index of the query. The chain of elementwise stages
  is the specification's bucket; the bucket is never negative, so the wrap-around select keeps it; it is below the
  number of rows, so the gather's clamp keeps it; and the gather then reads the item table's row at the bucket.
-/
import proofs.«160295_j24515673325873_2_alg».proof.Proof.Gen.ReferenceIdeal.Read
import proofs.«160295_j24515673325873_2_alg».proof.Proof.Spec
import Idealize.ShloMosaic.Lib.ValueIdx
import Idealize.ShloMosaic.Lib.Pipeline.Value
import Idealize.ShloMosaic.PureOps.Ideal

noncomputable section

namespace Cert.ReferenceIdeal.RefRead

open Idealize.ShloMosaic Idealize.ShloMosaic.ValueIdx

local notation "gd" => gather_S1024x256_S1048576x1_S1048576x256_1_0_n_n_0_1_1256

/-- The gather of rows read at a result index `y`: the start index `idx[y 0, 0]`, read signed and clamped into
    `[0, 1023]`, names the operand's row (axis 0 is collapsed: slice size 1), and the offset coordinate `y 1` its
    column (axis 1 is the one offset axis, slice size 256, not in the start index map). -/
theorem gather_row_apply {α : Type} {w : Nat} (x : S1024x256.Idx → α) (idx : IVec S1048576x1 w) (y : S1048576x256.Idx) :
    Host.gather gd x idx y
      = x (ix2 ⟨min (idx (ix2 (y 0) 0)).toInt.toNat 1023, by omega⟩ (y 1)) := by
  unfold Host.gather
  congr 1
  funext a
  refine Fin.ext ?_
  match a with
  | ⟨0, _⟩ =>
    show GatherDims.start gd y idx 0 + GatherDims.batchCoord gd y 0 + GatherDims.offCoord gd y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap gd) from List.mem_singleton.mpr rfl)]
    have hsi : GatherDims.siIdx gd y ⟨List.idxOf (0 : Fin 2) (GatherDims.startIndexMap gd),
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show GatherDims.start gd y idx 1 + GatherDims.batchCoord gd y 1 + GatherDims.offCoord gd y 1 = _
    rw [GatherDims.batchCoord_eq_zero _ _ _ List.not_mem_nil]
    unfold GatherDims.start
    rw [dif_neg (show ¬ (1 : Fin 2) ∈ (GatherDims.startIndexMap gd) from by decide)]
    simp only [Nat.add_zero, Nat.zero_add]
    unfold GatherDims.offCoord
    rw [dif_pos (show (1 : Fin 2) ∈ (GatherDims.sKept gd) from by decide)]
    rfl

/-- The reference's integer index of query `i` is the specification's bucket of that query: clip to `[0, 1]`, scale
    by 1024, floor, cap at 1023, convert. -/
theorem val_v6_eq_bucket (x0 : (⟨S1048576, .f32⟩ : BufTy).Contents (Elt Ideal)) (i : S1048576.Idx) :
    Cert.ReferenceIdeal.Read.val_main_v6 (F := Ideal) x0 i = Cert.Spec.bucket (x0 i) := by
  rw [Read.val_main_v6_apply, Read.val_main_v5_apply, Read.val_main_v4_apply, Read.val_main_cst_2_apply,
    Read.val_main_v3_apply, Read.val_main_v2_apply, Read.val_main_v1_apply, Read.val_main_cst_1_apply,
    Read.val_main_v0_apply, Read.val_main_call0_v4_apply, Read.val_main_call0_v3_apply, Read.val_main_cst_0_apply,
    Read.val_main_call0_v2_apply, Read.val_main_call0_v1_apply, Read.val_main_call0_v0_apply, Read.val_main_cst_apply]
  rfl

/-- A bucket, read as a signed word, is not below zero. -/
theorem bucket_not_slt (x : EReal) : IntOp.cmpi .slt (Cert.Spec.bucket x) 0#32 = 0#1 := by
  have hn : (Cert.Spec.bucket x).slt 0#32 = false := by
    rw [BitVec.slt, Cert.Spec.bucket_toInt]
    simp
  show BitVec.ofBool ((Cert.Spec.bucket x).slt 0#32) = 0#1
  rw [hn]; rfl

/-- The reference's wrapped index of query `i` is still the bucket: the select adds the number of rows only to an
    index below zero, and a bucket never is. -/
theorem val_v11_eq_bucket (x0 : (⟨S1048576, .f32⟩ : BufTy).Contents (Elt Ideal)) (i : S1048576.Idx) :
    Cert.ReferenceIdeal.Read.val_main_v11 (F := Ideal) x0 i = Cert.Spec.bucket (x0 i) := by
  rw [Read.val_main_v11_apply, Read.val_main_v8_apply, Read.val_main_v7_apply, Read.val_main_c_apply, val_v6_eq_bucket,
    bucket_not_slt, select_zero]

/-- THE REFERENCE IS THE SPECIFICATION: row `n` of its result is the item table's row at the bucket of query `n`. -/
theorem val_eq_gathered (x0 : (⟨S1048576, .f32⟩ : BufTy).Contents (Elt Ideal))
    (x1 : (⟨S1024x256, .f32⟩ : BufTy).Contents (Elt Ideal)) :
    Cert.ReferenceIdeal.Read.val_main_v13 (F := Ideal) x0 x1 = Cert.Spec.gathered x0 x1 := by
  funext y
  unfold Cert.ReferenceIdeal.Read.val_main_v13
  refine (gather_row_apply x1 (Read.val_main_v12 (F := Ideal) x0) y).trans ?_
  show x1 _ = x1 _
  refine congrArg x1 (funext fun a => Fin.ext ?_)
  match a with
  | ⟨0, _⟩ =>
    have hi : Read.idx_main_v12 (ix2 (y 0) 0) = ix1 (n := 1048576) (y 0) := by
      funext d; match d with | ⟨0, _⟩ => rfl
    have hv : Read.val_main_v12 (F := Ideal) x0 (ix2 (y 0) 0) = Cert.Spec.bucket (x0 (ix1 (n := 1048576) (y 0))) :=
      (Read.val_main_v12_apply x0 _).trans
        ((congrArg (Read.val_main_v11 (F := Ideal) x0) hi).trans (val_v11_eq_bucket x0 _))
    have hlt := Cert.Spec.bucket_lt (x0 (ix1 (n := 1048576) (y 0)))
    refine (congrArg (fun b : BitVec 32 => min b.toInt.toNat 1023) hv).trans ?_
    show min (Cert.Spec.bucket (x0 (ix1 (n := 1048576) (y 0)))).toInt.toNat 1023
      = (Cert.Spec.bucket (x0 (ix1 (n := 1048576) (y 0)))).toNat
    rw [Cert.Spec.bucket_toInt, Int.toNat_natCast]
    exact Nat.min_eq_left (by omega)
  | ⟨1, _⟩ => rfl

end Cert.ReferenceIdeal.RefRead

end
-- ==== Proof.FiniteItems.lean ====
/-
  The precondition read back: when both arguments pass the finiteness check, every item is a real number. The
  check is the conjunction of two "all elements satisfy" reductions, one per argument, of the comparison
  |x| < +inf elementwise; the one over the item table, read at an index, says that item's absolute value is below
  the top element of the extended reals, which leaves neither infinity.
-/
import proofs.«160295_j24515673325873_2_alg».proof.Pre_finite_inputs
import Idealize.ShloMosaic.Lib.ReduceAll
import Idealize.ShloMosaic.PureOps.Ideal
import Idealize.ShloMosaic.Lib.ValueIdx

noncomputable section

namespace Cert.FiniteItems

open Cert.Pre_finite_inputs Idealize.ShloMosaic Idealize.ShloMosaic.ValueIdx

/-- The scalar shape has one index. -/
instance : Subsingleton S_.Idx := ⟨fun a b => funext fun d => d.elim0⟩

/-- The pattern of `+inf` denotes the top element. -/
theorem ofBits_inf : Ideal.ofBits .f32 0x7F800000#32 = (⊤ : EReal) := by
  simp [Ideal.ofBits, Ideal.ieee]

/-- An extended real whose absolute value is below the top element is a real number. -/
theorem real_of_abs_lt_top (x : EReal) (h : max x (-x) < ⊤) : ∃ r : ℝ, x = (r : EReal) := by
  induction x using EReal.rec with
  | bot => simp at h
  | top => simp at h
  | coe a => exact ⟨a, rfl⟩

/-- An ordered "less than" comparison that answers 1 compared two extended reals in that order. -/
theorem lt_of_cmp_olt (x y : EReal) (h : Ideal.cmp .olt x y = 1#1) : x < y := by
  unfold Ideal.cmp at h
  by_contra hn
  simp [hn] at h

/-- THE PRECONDITION DECODED: every item is a real number. -/
theorem items_real [Cert.Pre_finite_inputs.Facts] (a0 : FVec Ideal S1048576 .f32) (a1 : FVec Ideal S1024x256 .f32)
    (h : Cert.Pre_finite_inputs.fn (F := Ideal) a0 a1 = fun _ => 1#1) : ∀ j, ∃ r : ℝ, a1 j = (r : EReal) := by
  intro j
  have e := congrFun h ix0
  dsimp only [Cert.Pre_finite_inputs.fn] at e
  obtain ⟨-, e2⟩ := IntOp.andi_eq_one.1 e
  have hj := Host.reduce_andi_all _ _ _ _ _ e2 j
  have hlt : max (a1 j) (-(a1 j)) < Ideal.ofBits .f32 0x7F800000#32 := lt_of_cmp_olt _ _ hj
  rw [ofBits_inf] at hlt
  exact real_of_abs_lt_top _ hlt

end Cert.FiniteItems

end
-- ==== Proof.Block.lean ====
/-
  What the kernel body leaves in its output block, as one function of its three input blocks. The body first parks the
  32×256 block of buckets in a scratch buffer with one whole store; then trip `r` of its loop loads row `r` of that
  buffer and stores one 1×256×256 slab, the second payload of that row, at row `r` of the output block. The 32 slabs
  tile the block, each slab restricts the same function of the block index, so the block IS that function.
-/
import proofs.«160295_j24515673325873_2_alg».proof.Proof.Gen.KernelIdeal.Frame
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.SL.Sem
open Idealize.ShloMosaic.ValueIdx

variable {F : FTy → Type} [FloatOps F]

/-- Row `r` of the block of buckets, as the 1×256 vector one trip of the loop loads. -/
def rowOf (B : Vec F S32x256 .i32) (r : Fin 32) : Vec F S1x256 .i32 := fun j => B (ix2 r (j 1))

/-- The output block as ONE function of the three input blocks. -/
def blockOf (x0 : Vec F S32x256 .f32) (x1 x2 : Vec F S1024x256 .bf16) : Vec F S32x256x256 .f32 :=
  fun y => k0_pay2 x1 x2 (rowOf (k0_pay1 x0) (y 0)) (ix3 0 (y 1) (y 2))

theorem trip_piece (𝒱 : Variants) (bd : Option 𝒱.V) (c : Dev nD) (i : grid0.Coords) (arg1 : Memref sig .tc .vmem S32x256 .f32) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S32x256x256 .f32) (harg4 : arg4.IsWhole) (arg5 : Memref sig .tc .vmem S32x256 .i32) (harg5 : arg5.IsWhole) (v16 v18 : Vec F S1024x256 .bf16)
    (X : BufTy.Contents (Elt F) arg5.view.ty) (B : Vec F S32x256 .i32) (hX : arg5.view.read (Elt F) X = B)
    (k : Fin k0_t1_loop.trips) :
    ∀ p ∈ tripL_k0_t1 (F := F) 𝒱 c bd i arg1 harg1 arg2 harg2 arg3 harg3 arg4 harg4 arg5 harg5 v16 v18 X k, ∀ x : p.1.shape.Idx,
      p.2 x = k0_pay2 v16 v18 (rowOf B ((p.1.emb x) 0)) (ix3 0 ((p.1.emb x) 1) ((p.1.emb x) 2)) := by
  intro p hp
  unfold tripL_k0_t1 trip_k0_t1 at hp
  dsimp only at hp
  rw [List.mem_singleton] at hp
  subst hp
  intro x
  dsimp only
  have o10 : k0_off1 k 0 = k.val := congrFun (k0_off1_eq k) 0
  have o11 : k0_off1 k 1 = 0 := congrFun (k0_off1_eq k) 1
  have o20 : k0_off2 k 0 = k.val := congrFun (k0_off2_eq k) 0
  have o21 : k0_off2 k 1 = 0 := congrFun (k0_off2_eq k) 1
  have o22 : k0_off2 k 2 = 0 := congrFun (k0_off2_eq k) 2
  have hx0 : (x 0).val = 0 := by
    have h : (x 0).val < 1 := (x 0).isLt
    omega
  have hrow : View.readAt (Elt F) arg5.view (Rect.unit (s := S32x256) (k0_off1 k) ![1, 256] (k0_off1_inb k)).toLoadRect X
      = rowOf B ((Rect.unit (s := S32x256x256) (k0_off2 k) ![1, 256, 256] (k0_off2_inb k)).emb x 0) := by
    funext j
    have hj0 : (j 0).val = 0 := by
      have h : (j 0).val < 1 := (j 0).isLt
      omega
    rw [View.readAt_apply, hX]
    unfold rowOf
    congr 1
    funext a; refine Fin.ext ?_
    match a with
    | ⟨0, _⟩ =>
      show k0_off1 k 0 + 1 * (j 0).val = k0_off2 k 0 + 1 * (x 0).val
      omega
    | ⟨1, _⟩ =>
      show k0_off1 k 1 + 1 * (j 1).val = (j 1).val
      omega
  have hx : x = ix3 0 ((Rect.unit (s := S32x256x256) (k0_off2 k) ![1, 256, 256] (k0_off2_inb k)).emb x 1)
      ((Rect.unit (s := S32x256x256) (k0_off2 k) ![1, 256, 256] (k0_off2_inb k)).emb x 2) := by
    funext a; refine Fin.ext ?_
    match a with
    | ⟨0, _⟩ => exact hx0
    | ⟨1, _⟩ =>
      show (x 1).val = k0_off2 k 1 + 1 * (x 1).val
      omega
    | ⟨2, _⟩ =>
      show (x 2).val = k0_off2 k 2 + 1 * (x 2).val
      omega
  rw [hrow]
  exact congrArg _ hx

/-- The pieces of the trips before `n` all restrict the one block function: by induction on the trips, each trip
    adding its own row's piece in front. -/
theorem pb_pieces (𝒱 : Variants) (bd : Option 𝒱.V) (c : Dev nD) (i : grid0.Coords) (arg1 : Memref sig .tc .vmem S32x256 .f32) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S32x256x256 .f32) (harg4 : arg4.IsWhole) (arg5 : Memref sig .tc .vmem S32x256 .i32) (harg5 : arg5.IsWhole) (v16 v18 : Vec F S1024x256 .bf16)
    (X : BufTy.Contents (Elt F) arg5.view.ty) (B : Vec F S32x256 .i32) (hX : arg5.view.read (Elt F) X = B) :
    ∀ n, n ≤ k0_t1_loop.trips → ∀ p ∈ pb_k0_t1 (F := F) 𝒱 c bd i arg1 harg1 arg2 harg2 arg3 harg3 arg4 harg4 arg5 harg5 v16 v18 X n, ∀ x : p.1.shape.Idx,
      p.2 x = k0_pay2 v16 v18 (rowOf B ((p.1.emb x) 0)) (ix3 0 ((p.1.emb x) 1) ((p.1.emb x) 2))
  | 0, _ => by
    intro p hp
    rw [pb_k0_t1.eq_1] at hp
    exact absurd hp List.not_mem_nil
  | n + 1, h => by
    intro p hp
    have hn : n < k0_t1_loop.trips := h
    rw [show n + 1 = (⟨n, hn⟩ : Fin k0_t1_loop.trips).val + 1 from rfl, pb_k0_t1_succ] at hp
    rcases List.mem_append.mp hp with h1 | h2
    · exact trip_piece 𝒱 bd c i arg1 harg1 arg2 harg2 arg3 harg3 arg4 harg4 arg5 harg5 v16 v18 X B hX ⟨n, hn⟩ p h1
    · exact pb_pieces 𝒱 bd c i arg1 harg1 arg2 harg2 arg3 harg3 arg4 harg4 arg5 harg5 v16 v18 X B hX n (Nat.le_of_lt hn) p h2

/-- The two zero offsets, spelt as the constant function. -/
theorem zero2 : (![0, 0] : Fin 2 → Nat) = fun _ => 0 := by
  funext a; match a with | ⟨0, _⟩ => rfl | ⟨1, _⟩ => rfl

/-- A load of a whole rank-2 staging buffer reads its contents. -/
theorem read_whole {S : Shape} {e : EltTy} (hS : S.rank = 2) (arg : Memref sig .tc .vmem S e) (h : arg.IsWhole) (x : Vec F S e)
    (off : Fin S.rank → Nat) (hoff : off = fun _ => 0) (inb : ∀ a, off a + S.size a ≤ S.size a) :
    View.readAt (Elt F) arg.view (Rect.unit (s := S) off S.size inb).toLoadRect (h.unread x) = x := by
  rw [View.readAt_eq_ld, h.read_unread, View.ld_unit_zero hoff]

/-- THE BLOCK: what the body leaves in the output's staging buffer is the one block function of its three input blocks —
    row `r` of the block is the second payload at row `r` of the first payload (the buckets the body parks in its
    scratch buffer before the loop and reads back a row per trip). -/
theorem out0_eq (c : Dev nD) (i : grid0.Coords) (arg1 : Memref sig .tc .vmem S32x256 .f32) (harg1 : arg1.IsWhole) (arg2 : Memref sig .tc .vmem S1024x256 .bf16) (harg2 : arg2.IsWhole) (arg3 : Memref sig .tc .vmem S1024x256 .bf16) (harg3 : arg3.IsWhole) (arg4 : Memref sig .tc .vmem S32x256x256 .f32) (harg4 : arg4.IsWhole) (arg5 : Memref sig .tc .vmem S32x256 .i32) (harg5 : arg5.IsWhole) (x0 : Vec F S32x256 .f32) (x1 x2 : Vec F S1024x256 .bf16) :
    out0_A_3 c i arg1 harg1 arg2 harg2 arg3 harg3 arg4 harg4 arg5 harg5 x0 x1 x2 = blockOf x0 x1 x2 := by
  unfold out0_A_3
  rw [View.read_writes_junk_eq_canon]
  funext y
  refine View.canon_apply_of_pieces (blockOf x0 x1 x2) _ ?_ y (cover0_A_3 c i arg1 harg1 arg2 harg2 arg3 harg3 arg4 harg4 arg5 harg5 x0 x1 x2 y)
  intro p hp x
  unfold kernelRun0_A at hp
  dsimp only at hp
  rw [read_whole rfl arg2 harg2 x1 _ zero2, read_whole rfl arg3 harg3 x2 _ zero2] at hp
  have hX : arg5.view.read (Elt F) (arg5.view.writes (Elt F) arg5.view.junk (kernelRun0_A.sl.HS0_1 c arg1 harg1 x0)) = k0_pay1 x0 := by
    rw [View.read_writes_junk_eq_canon]
    unfold kernelRun0_A.sl.HS0_1
    rw [View.canon_unit_zero zero2, read_whole rfl arg1 harg1 x0 _ zero2]
  exact pb_pieces Variants.none none c i arg1 harg1 arg2 harg2 arg3 harg3 arg4 harg4 arg5 harg5 x1 x2 _ (k0_pay1 x0) hX _ (le_refl _) p hp x

end Cert.KernelIdeal.Block

end
-- ==== Proof.Payload.lean ====
/-
  The body's two payloads read at an element, over the extended reals. The first is the bucket of the query. The second
  is a sum of two matrix products whose common left operand is one-hot: its entry `(k, a)` is `1` when `k` is the bucket
  in lane `a` and `0` otherwise, so each product, a sum over the 1024 rows, keeps exactly the bucket's row of its table.
-/
import proofs.«160295_j24515673325873_2_alg».proof.Proof.Gen.KernelIdeal.Skeleton
import proofs.«160295_j24515673325873_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Payload

open Cert.KernelIdeal Cert.KernelIdeal.Gen Idealize.ShloMosaic Idealize.ShloMosaic.TcCoe Idealize.SL.Sem
open Idealize.ShloMosaic.ValueIdx
open scoped BigOperators

/-- The first payload, at an element, is the bucket of the query there. -/
theorem pay1_apply (x0 : Vec Ideal S32x256 .f32) (j : S32x256.Idx) :
    k0_pay1 (F := Ideal) x0 j = Cert.Spec.bucket (x0 j) := by
  unfold k0_pay1
  rw [shapeCast_self, shapeCast_self]
  rfl

/-- The contraction runs over axis 0 of both operands: at output `(a, b)` and contraction position `k` the left
    operand is read at `(k, a)` -/
theorem lhsIdx_eq (a b : Fin 256) (kk : dot_S1024x256_S1024x256_S256x256_0_0_1_1_n_n.contr.Idx) :
    dot_S1024x256_S1024x256_S256x256_0_0_1_1_n_n.lhsIdx (ix2 a b) kk = ix2 ((contrEquiv1 dot_S1024x256_S1024x256_S256x256_0_0_1_1_n_n 1024 rfl rfl) kk) a := by
  funext ax; refine Fin.ext ?_
  match ax with
  | ⟨0, _⟩ => rfl
  | ⟨1, _⟩ => rfl

/-- and the right operand at `(k, b)`. -/
theorem rhsIdx_eq (a b : Fin 256) (kk : dot_S1024x256_S1024x256_S256x256_0_0_1_1_n_n.contr.Idx) :
    dot_S1024x256_S1024x256_S256x256_0_0_1_1_n_n.rhsIdx (ix2 a b) kk = ix2 ((contrEquiv1 dot_S1024x256_S1024x256_S256x256_0_0_1_1_n_n 1024 rfl rfl) kk) b := by
  funext ax; refine Fin.ext ?_
  match ax with
  | ⟨0, _⟩ => rfl
  | ⟨1, _⟩ => rfl

/-- A row number below 1024, as a 32-bit word, is a given word exactly when it is that word's value. -/
theorem ofNat_eq_iff (k : Fin 1024) (cw : BitVec 32) (hc : cw.toNat < 1024) :
    BitVec.ofNat 32 k.val = cw ↔ k = ⟨cw.toNat, hc⟩ := by
  constructor
  · intro h
    apply Fin.ext
    have h' := congrArg BitVec.toNat h
    rw [BitVec.toNat_ofNat] at h'
    have := k.isLt
    show k.val = cw.toNat
    omega
  · intro h
    subst h
    apply BitVec.eq_of_toNat_eq
    rw [BitVec.toNat_ofNat]
    exact Nat.mod_eq_of_lt cw.isLt

/-- A product with a ONE-HOT left operand picks a row: if column `a` of the left operand is `1` at row `cr` and `0`
    elsewhere, the contraction over the rows at output `(a, b)` is the right operand's entry `(cr, b)`. Only
    `0 · x = 0` and `1 · x = x` are used, which hold for every extended real. -/
theorem onehot_dot (oh w : FVec Ideal S1024x256 .bf16) (a b : Fin 256) (cr : Fin 1024)
    (hoh : ∀ k : Fin 1024, oh (ix2 k a) = if k = cr then (1 : EReal) else 0) :
    FloatOps.matmul dot_S1024x256_S1024x256_S256x256_0_0_1_1_n_n none oh w (constant S256x256 .f32 0x00000000#32) (ix2 a b) = w (ix2 cr b) := by
  rw [Ideal.matmul_constant_zero_apply]
  have e : ∑ kk : dot_S1024x256_S1024x256_S256x256_0_0_1_1_n_n.contr.Idx, oh (dot_S1024x256_S1024x256_S256x256_0_0_1_1_n_n.lhsIdx (ix2 a b) kk) * w (dot_S1024x256_S1024x256_S256x256_0_0_1_1_n_n.rhsIdx (ix2 a b) kk)
      = ∑ kk : dot_S1024x256_S1024x256_S256x256_0_0_1_1_n_n.contr.Idx, (fun k : Fin 1024 => oh (ix2 k a) * w (ix2 k b)) ((contrEquiv1 dot_S1024x256_S1024x256_S256x256_0_0_1_1_n_n 1024 rfl rfl) kk) :=
    Finset.sum_congr rfl fun kk _ => by rw [lhsIdx_eq, rhsIdx_eq]
  rw [e, Equiv.sum_comp (contrEquiv1 dot_S1024x256_S1024x256_S256x256_0_0_1_1_n_n 1024 rfl rfl) (fun k : Fin 1024 => oh (ix2 k a) * w (ix2 k b))]
  rw [Finset.sum_eq_single cr]
  · rw [hoh, if_pos rfl, one_mul]
  · intro k _ hk
    rw [hoh, if_neg hk, zero_mul]
  · intro h
    exact absurd (Finset.mem_univ cr) h

/-- The body's one-hot operand: entry `(k, a)` compares row number `k` with the bucket in lane `a` of the loaded row,
    and converts the one-bit answer to a float, `1` or `0`. -/
theorem onehot_apply (row : Vec Ideal S1x256 .i32) (k : Fin 1024) (a : Fin 256) :
    (truncf .bf16 (sitofp .f32 (extui 32 (cmpi .eq
        (broadcastTo S1024x256 (iota .tc S1024x1 32 [0] iota_S1024x1_d0_w32) broadcasts_S1024x1_S1024x256)
        (broadcastTo S1024x256 row broadcasts_S1x256_S1024x256)) natLt_1_32)) bitsLt_bf16_f32 : FVec Ideal S1024x256 .bf16) (ix2 k a)
      = if BitVec.ofNat 32 k.val = row (ix2 0 a) then (1 : EReal) else 0 := by
  have h1 : broadcastTo S1024x256 (iota .tc S1024x1 32 [0] iota_S1024x1_d0_w32) broadcasts_S1024x1_S1024x256 (ix2 k a)
      = BitVec.ofNat 32 k.val := by
    rw [broadcastTo_apply _ _ (ix2 k a) (ix2 k 0) (fun ax => by
      match ax with
      | ⟨0, _⟩ => show k.val = if (1024 : Nat) = 1 then 0 else k.val; rw [if_neg (by decide)]
      | ⟨1, _⟩ => show 0 = if (1 : Nat) = 1 then 0 else a.val; rw [if_pos rfl]), iota_single_apply]
  have h2 : broadcastTo S1024x256 row broadcasts_S1x256_S1024x256 (ix2 k a) = row (ix2 0 a) :=
    broadcastTo_apply _ _ (ix2 k a) (ix2 0 a) (fun ax => by
      match ax with
      | ⟨0, _⟩ => show 0 = if (1 : Nat) = 1 then 0 else k.val; rw [if_pos rfl]
      | ⟨1, _⟩ => show a.val = if (256 : Nat) = 1 then 0 else a.val; rw [if_neg (by decide)])
  rw [truncf_apply, sitofp_apply, extui_apply]
  rw [show cmpi .eq (broadcastTo S1024x256 (iota .tc S1024x1 32 [0] iota_S1024x1_d0_w32) broadcasts_S1024x1_S1024x256)
        (broadcastTo S1024x256 row broadcasts_S1x256_S1024x256) (ix2 k a)
      = IntOp.cmpi .eq (broadcastTo S1024x256 (iota .tc S1024x1 32 [0] iota_S1024x1_d0_w32) broadcasts_S1024x1_S1024x256 (ix2 k a))
          (broadcastTo S1024x256 row broadcasts_S1x256_S1024x256 (ix2 k a)) from rfl, h1, h2]
  by_cases h : BitVec.ofNat 32 k.val = row (ix2 0 a)
  · rw [if_pos h, IntOp.cmpi_eq.mpr h]
    show ((((1#1 : BitVec 1).setWidth 32).toInt : ℝ) : EReal) = 1
    norm_num
  · rw [if_neg h, eq_zero_of_ne_one (mt IntOp.cmpi_eq.mp h)]
    show ((((0#1 : BitVec 1).setWidth 32).toInt : ℝ) : EReal) = 0
    norm_num

/-- The second payload at `(0, a, b)`: the two one-hot products pick entry `(bucket, b)` of the two tables, and the
    payload is their sum. -/
theorem pay2_apply (x1 x2 : Vec Ideal S1024x256 .bf16) (row : Vec Ideal S1x256 .i32) (a b : Fin 256)
    (hc : (row (ix2 0 a)).toNat < 1024) :
    k0_pay2 (F := Ideal) x1 x2 row (ix3 0 a b)
      = x1 (ix2 ⟨(row (ix2 0 a)).toNat, hc⟩ b) + x2 (ix2 ⟨(row (ix2 0 a)).toNat, hc⟩ b) := by
  unfold k0_pay2
  rw [shapeCast_addUnit_apply]
  have hidx : (fun ax : Fin 2 => (ix3 (0 : Fin 1) a b) ax.succ) = ix2 a b := by
    funext ax
    match ax with
    | ⟨0, _⟩ => rfl
    | ⟨1, _⟩ => rfl
  rw [hidx, shapeCast_shapeCast, shapeCast_self, shapeCast_self, addf_apply]
  have hoh : ∀ k : Fin 1024, (truncf .bf16 (sitofp .f32 (extui 32 (cmpi .eq
        (broadcastTo S1024x256 (iota .tc S1024x1 32 [0] iota_S1024x1_d0_w32) broadcasts_S1024x1_S1024x256)
        (broadcastTo S1024x256 row broadcasts_S1x256_S1024x256)) natLt_1_32)) bitsLt_bf16_f32 : FVec Ideal S1024x256 .bf16) (ix2 k a)
      = if k = ⟨(row (ix2 0 a)).toNat, hc⟩ then (1 : EReal) else 0 := fun k => by
    rw [onehot_apply]
    by_cases h : k = ⟨(row (ix2 0 a)).toNat, hc⟩
    · rw [if_pos h, if_pos ((ofNat_eq_iff k _ hc).mpr h)]
    · rw [if_neg h, if_neg (mt (ofNat_eq_iff k _ hc).mp h)]
  exact congrArg₂ (· + ·) (onehot_dot _ x1 a b _ hoh) (onehot_dot _ x2 a b _ hoh)

end Cert.KernelIdeal.Payload

end
-- ==== Proof.Whole.lean ====
/-
  The idealized kernel program's result as one function of its two argument arrays, over the extended reals.
  Before the region the program re-lays the queries as 4096 rows of 256 and splits the item table into two tables: the
  items (a change of float format, the identity here) and the items minus themselves, which is zero when every item is a
  real number. At grid point `t` the body reads query rows `32 t … 32 t + 31` and both whole tables, and leaves the block
  whose entry `(r, a, b)` is the sum of the two tables' entries `(bucket, b)` for the bucket of query `(32 t + r, a)`; the
  second term is `0`. The 128 blocks tile the 4096×256×256 array, and the program's last operation re-lays it as
  1048576×256, row `n` being row `(n / 256, n % 256)`: the item row picked by query `n`.
-/
import proofs.«160295_j24515673325873_2_alg».proof.Proof.Gen.KernelIdeal.Frame
import proofs.«160295_j24515673325873_2_alg».proof.Proof.Block
import proofs.«160295_j24515673325873_2_alg».proof.Proof.Payload
import proofs.«160295_j24515673325873_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-- The query array at launch, as a function to the extended reals. -/
abbrev queries0 (c : Dev nD) : S1048576.Idx → EReal := m ((c : Thread nD τ).loc main_arg0)
/-- The item table at launch, as a function to the extended reals. -/
abbrev items0 (c : Dev nD) : S1024x256.Idx → EReal := m ((c : Thread nD τ).loc main_arg1)

/-- The queries as the region finds them: the flat array re-laid as 4096 rows of 256. -/
theorem V_v0 (c : Dev nD) : (V m c main_v0 : S4096x256.Idx → EReal)
    = shapeCast S4096x256 (queries0 m c) shapeCasts_S1048576_S4096x256 := by
  show StableHlo.after hostOps0 (fun b => m (c, b)) (Proc.devRef .tc main_v0) = _
  after_results
  rfl

/-- The first table as the region finds it: a change of float format of the items, the identity on extended reals. -/
theorem V_v1 (c : Dev nD) : (V m c main_v1 : S1024x256.Idx → EReal) = items0 m c := by
  show StableHlo.after hostOps0 (fun b => m (c, b)) (Proc.devRef .tc main_v1) = _
  after_results
  rfl

/-- The second table as the region finds it: the items minus themselves, entry by entry. -/
theorem V_v4 (c : Dev nD) : (V m c main_v4 : S1024x256.Idx → EReal)
    = fun j => items0 m c j - items0 m c j := by
  show StableHlo.after hostOps0 (fun b => m (c, b)) (Proc.devRef .tc main_v4) = _
  after_results
  rfl

/-- The printed index maps over the grid: the query and result windows move one block per point along axis 0, the two
    tables stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A query block at a point is 32 consecutive rows of the re-laid queries, -/
theorem iblk0_apply (c : Dev nD) (t : Fin cfg0.N) (r : Fin 32) (a : Fin 256) (k : S4096x256.Idx)
    (hk0 : (k 0).val = t.val * 32 + r.val) (hk1 : (k 1).val = a.val) :
    (iblk m c 0 t : Vec Ideal S32x256 .f32) (ix2 r a) = (V m c main_v0 : S4096x256.Idx → EReal) k := by
  obtain ⟨e0, e1, -⟩ := idx_facts t
  unfold iblk
  rw [View.read_apply]
  show V m c main_v0 _ = V m c main_v0 _
  congr 1
  funext ax
  apply Fin.ext
  match ax with
  | ⟨0, _⟩ => show win0_0.index t (0 : Fin 2) * 32 + 1 * r.val = (k 0).val; rw [e0, hk0]; omega
  | ⟨1, _⟩ => show win0_0.index t (1 : Fin 2) * 256 + 1 * a.val = (k 1).val; rw [e1, hk1]; omega

/-- and each table's block at every point is the whole table. -/
theorem iblk1_eq (c : Dev nD) (t : Fin cfg0.N) :
    (iblk m c 1 t : Vec Ideal S1024x256 .bf16) = (V m c main_v1 : S1024x256.Idx → EReal) := by
  obtain ⟨-, -, e0, e1, -⟩ := idx_facts t
  funext j
  unfold iblk
  rw [View.read_apply]
  show V m c main_v1 _ = V m c main_v1 _
  congr 1
  funext ax
  apply Fin.ext
  match ax with
  | ⟨0, _⟩ => show win0_1.index t (0 : Fin 2) * 1024 + 1 * (j 0).val = (j 0).val; rw [e0]; omega
  | ⟨1, _⟩ => show win0_1.index t (1 : Fin 2) * 256 + 1 * (j 1).val = (j 1).val; rw [e1]; omega

theorem iblk2_eq (c : Dev nD) (t : Fin cfg0.N) :
    (iblk m c 2 t : Vec Ideal S1024x256 .bf16) = (V m c main_v4 : S1024x256.Idx → EReal) := by
  obtain ⟨-, -, -, -, e0, e1, -⟩ := idx_facts t
  funext j
  unfold iblk
  rw [View.read_apply]
  show V m c main_v4 _ = V m c main_v4 _
  congr 1
  funext ax
  apply Fin.ext
  match ax with
  | ⟨0, _⟩ => show win0_2.index t (0 : Fin 2) * 1024 + 1 * (j 0).val = (j 0).val; rw [e0]; omega
  | ⟨1, _⟩ => show win0_2.index t (1 : Fin 2) * 256 + 1 * (j 1).val = (j 1).val; rw [e1]; omega

/-- A flat query position read safely: the query there, or `0` past the end (never reached). -/
def qAt (q : S1048576.Idx → EReal) (n : Nat) : EReal := if h : n < 1048576 then q (ix1 ⟨n, h⟩) else 0

/-- The item row a query picks, at column `b`. -/
def pick (items : S1024x256.Idx → EReal) (x : EReal) (b : Fin 256) : EReal :=
  items (ix2 ⟨(Cert.Spec.bucket x).toNat, Cert.Spec.bucket_lt x⟩ b)

theorem pick_of_word (items : S1024x256.Idx → EReal) (x : EReal) (b : Fin 256) (cw : BitVec 32) (hc : cw.toNat < 1024)
    (h : cw = Cert.Spec.bucket x) : items (ix2 ⟨cw.toNat, hc⟩ b) = pick items x b := by
  subst h; rfl

/-- The result as the region's 4096×256×256 array: entry `(R, a, b)` is column `b` of the item row picked by flat query
    `256 R + a`. -/
def G3 (q : S1048576.Idx → EReal) (items : S1024x256.Idx → EReal) : S4096x256x256.Idx → EReal :=
  fun y => pick items (qAt q ((y 0).val * 256 + (y 1).val)) (y 2)

/-- ONE BLOCK, over plain variables: if the query block holds the queries of rows `32 T + r`, the first table is the
    items and the second table is zero, the block the body leaves is `G3` on those rows. The second table contributes
    `+ 0`. -/
theorem block_value (x0 : Vec Ideal S32x256 .f32) (x1 x2 : Vec Ideal S1024x256 .bf16) (q : S1048576.Idx → EReal)
    (items : S1024x256.Idx → EReal) (T : Nat)
    (h0 : ∀ (r : Fin 32) (a : Fin 256), x0 (ix2 r a) = qAt q ((T * 32 + r.val) * 256 + a.val))
    (h1 : ∀ j, x1 j = items j) (h2 : ∀ j, x2 j = 0) (r : Fin 32) (a b : Fin 256) :
    Block.blockOf (F := Ideal) x0 x1 x2 (ix3 r a b) = pick items (qAt q ((T * 32 + r.val) * 256 + a.val)) b := by
  have hb : Block.rowOf (F := Ideal) (k0_pay1 (F := Ideal) x0) r (ix2 0 a) = Cert.Spec.bucket (qAt q ((T * 32 + r.val) * 256 + a.val)) := by
    rw [← h0 r a]
    exact Payload.pay1_apply x0 (ix2 r a)
  have hc : (Block.rowOf (F := Ideal) (k0_pay1 (F := Ideal) x0) r (ix2 0 a)).toNat < 1024 := by
    rw [hb]; exact Cert.Spec.bucket_lt _
  show k0_pay2 (F := Ideal) x1 x2 (Block.rowOf (F := Ideal) (k0_pay1 (F := Ideal) x0) r) (ix3 0 a b) = _
  rw [Payload.pay2_apply x1 x2 _ a b hc, h1, h2, add_zero]
  exact pick_of_word items _ b _ hc hb

/-- The re-laid queries at `(R, a)` are the flat query `256 R + a`: a reshape keeps the row-major position. -/
theorem V_v0_apply (c : Dev nD) (k : S4096x256.Idx) :
    (V m c main_v0 : S4096x256.Idx → EReal) k = qAt (queries0 m c) ((k 0).val * 256 + (k 1).val) := by
  have h0 : (k 0).val < 4096 := (k 0).isLt
  have h1 : (k 1).val < 256 := (k 1).isLt
  have hlt : (k 0).val * 256 + (k 1).val < 1048576 := by omega
  rw [V_v0, shapeCast_apply _ _ k (ix1 ⟨(k 0).val * 256 + (k 1).val, hlt⟩) (by
    rw [Shape.rowMajor_val_one, Shape.rowMajor_val_two]; rfl)]
  unfold qAt
  rw [dif_pos hlt]

/-- WHAT POINT `t` WRITES BACK is block `t` of `G3` of the two argument arrays, when every item is a real number (the
    second table, items minus items, is then zero). -/
theorem flushed_eq (c : Dev nD) (hfin : ∀ j, ∃ r : ℝ, items0 m c j = (r : EReal)) (t : Fin cfg0.N) :
    (dats m 0 c).flushed 3 t = ((cfg0.win 3).blk t).view.read (Elt Ideal) (G3 (queries0 m c) (items0 m c)) := by
  obtain ⟨-, -, -, -, -, -, e0, e1, e2⟩ := idx_facts t
  show (cfg0.win 3).cut (grid0.coords t) ((dats m 0 c).after 3 t) = _
  rw [after0_3]
  unfold outsAt0
  rw [Block.out0_eq]
  funext y
  obtain ⟨r, a, b, rfl⟩ : ∃ (r : Fin 32) (a b : Fin 256), y = ix3 r a b := ⟨y 0, y 1, y 2, eq_ix3 y⟩
  show Block.blockOf (F := Ideal) (iblk m c 0 t) (iblk m c 1 t) (iblk m c 2 t) (ix3 r a b)
    = G3 (queries0 m c) (items0 m c) (((cfg0.win 3).blk t).view.emb (ix3 r a b))
  refine (block_value (iblk m c 0 t) (iblk m c 1 t) (iblk m c 2 t) (queries0 m c) (items0 m c) t.val ?_ ?_ ?_ r a b).trans ?_
  · intro r' a'
    have ht : t.val < 128 := lt_of_lt_of_eq t.isLt N_0
    have hr : r'.val < 32 := r'.isLt
    rw [iblk0_apply m c t r' a' (ix2 ⟨t.val * 32 + r'.val, by omega⟩ a') rfl rfl, V_v0_apply]
  · intro j
    rw [iblk1_eq, V_v1]
  · intro j
    rw [iblk2_eq, V_v4]
    obtain ⟨x, hx⟩ := hfin j
    show items0 m c j - items0 m c j = 0
    rw [hx, ← EReal.coe_sub, sub_self, EReal.coe_zero]
  · unfold G3
    have k0 : ((((cfg0.win 3).blk t).view.emb (ix3 r a b)) 0).val = t.val * 32 + r.val := by
      show win0_3.index t (0 : Fin 3) * 32 + 1 * r.val = _; rw [e0]; omega
    have k1 : ((((cfg0.win 3).blk t).view.emb (ix3 r a b)) 1).val = a.val := by
      show win0_3.index t (1 : Fin 3) * 256 + 1 * a.val = _; rw [e1]; omega
    have k2 : (((cfg0.win 3).blk t).view.emb (ix3 r a b)) 2 = b := Fin.ext (by
      show win0_3.index t (2 : Fin 3) * 256 + 1 * b.val = _; rw [e2]; omega)
    rw [k0, k1, k2]

/-- The 128 blocks of 32 rows tile the 4096 rows: row `R` is in block `R / 32`. -/
theorem cover (c : Dev nD) (i : S4096x256x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  have hi2 : (i 2).val < 256 := (i 2).isLt
  have hN : cfg0.N = 128 := N_0
  have htl : (i 0).val / 32 < cfg0.N := by rw [hN]; omega
  obtain ⟨-, -, -, -, -, -, e0, e1, e2⟩ := idx_facts ⟨(i 0).val / 32, htl⟩
  refine ⟨⟨(i 0).val / 32, htl⟩, flush0_3 _, ?_⟩
  show i ∈ ((View.whole main_v5).slice (win0_3.rect ⟨(i 0).val / 32, htl⟩)).set
  rw [View.set_slice_whole, Rect.mem_set_unit]
  intro ax
  match ax with
  | ⟨0, _⟩ =>
    show win0_3.index ⟨(i 0).val / 32, htl⟩ (0 : Fin 3) * 32 ≤ (i 0).val ∧ (i 0).val < win0_3.index ⟨(i 0).val / 32, htl⟩ (0 : Fin 3) * 32 + 32
    rw [e0]; show (i 0).val / 32 * 32 ≤ (i 0).val ∧ (i 0).val < (i 0).val / 32 * 32 + 32; omega
  | ⟨1, _⟩ =>
    show win0_3.index ⟨(i 0).val / 32, htl⟩ (1 : Fin 3) * 256 ≤ (i 1).val ∧ (i 1).val < win0_3.index ⟨(i 0).val / 32, htl⟩ (1 : Fin 3) * 256 + 256
    rw [e1]; omega
  | ⟨2, _⟩ =>
    show win0_3.index ⟨(i 0).val / 32, htl⟩ (2 : Fin 3) * 256 ≤ (i 2).val ∧ (i 2).val < win0_3.index ⟨(i 0).val / 32, htl⟩ (2 : Fin 3) * 256 + 256
    rw [e2]; omega

/-- THE ARRAY after the region: `G3` of the two argument arrays. -/
theorem final (c : Dev nD) (hfin : ∀ j, ∃ r : ℝ, items0 m c j = (r : EReal)) :
    (dats m 0 c).arrAt 3 cfg0.N = G3 (queries0 m c) (items0 m c) :=
  (dats m 0 c).arrAt_eq_of_cover 3 (G3 (queries0 m c) (items0 m c)) (fun t _ => flushed_eq m c hfin t) (cover c)

/-- THE RESULT: after the region the program re-lays the 4096×256×256 array as 1048576×256, which keeps the row-major
    position: row `n` of the result is row `(n / 256, n % 256)` of the array, the item row picked by query `n`. -/
theorem tail_eq (c : Dev nD) (hfin : ∀ j, ∃ r : ℝ, items0 m c j = (r : EReal)) :
    (Pipeline.afterTail₀ cfgs (dats m) 0 (V0 m) [hostOps1] c main_v6 : S1048576x256.Idx → EReal)
      = Cert.Spec.gathered (queries0 m c) (items0 m c) := by
  unfold Pipeline.afterTail₀
  show StableHlo.after hostOps1 _ (Proc.devRef .tc main_v6) = _
  after_results
  have hW : Pipeline.withArrays (cfgs 0).spec c (V0 m c) (fun w => (dats m 0 c).arrAt w (cfgs 0).N) (Proc.tc.devRef main_v5)
      = G3 (queries0 m c) (items0 m c) :=
    (Pipeline.withArrays_arr spec0 launch0.win.arr_inj c _ _ 3).trans (final m c hfin)
  refine funext fun (i : S1048576x256.Idx) => ?_
  show shapeCast S1048576x256 (Pipeline.withArrays (cfgs 0).spec c (V0 m c) (fun w => (dats m 0 c).arrAt w (cfgs 0).N)
    (Proc.tc.devRef main_v5)) shapeCasts_S4096x256x256_S1048576x256 i = _
  rw [hW]
  have hi0 : (i 0).val < 1048576 := (i 0).isLt
  have hi1 : (i 1).val < 256 := (i 1).isLt
  have hk : (i 0).val / 256 < 4096 := by omega
  have hk' : (i 0).val % 256 < 256 := by omega
  refine (shapeCast_apply (s := S4096x256x256) (t := S1048576x256) (G3 (queries0 m c) (items0 m c))
    shapeCasts_S4096x256x256_S1048576x256 i
    (ix3 (⟨(i 0).val / 256, hk⟩ : Fin 4096) (⟨(i 0).val % 256, hk'⟩ : Fin 256) (i 1)) ?_).trans ?_
  · rw [Shape.rowMajor_val_three, Shape.rowMajor_val_two]
    show ((i 0).val / 256 * 256 + (i 0).val % 256) * 256 + (i 1).val = (i 0).val * 256 + (i 1).val
    omega
  unfold G3
  show pick (items0 m c) (qAt (queries0 m c) ((i 0).val / 256 * 256 + (i 0).val % 256)) (i 1) = _
  have e : (i 0).val / 256 * 256 + (i 0).val % 256 = (i 0).val := by omega
  rw [e]
  unfold qAt
  rw [dif_pos hi0]
  rfl

/-- THE RUN, READ: every weakly fair execution of the idealized kernel program terminates with the result at the
    specification of the two argument arrays, and the arguments unchanged — when every item is a real number. -/
theorem run (hfin : ∀ c j, ∃ r : ℝ, items0 m c j = (r : EReal)) :
    θ_run defs (onTc (τ := τ) (main (F := Ideal))) ⟨m, fun _ => 0, ρ⟩ fun r => ∀ c : Dev nD,
      r.2.mem ((c : Thread nD τ).loc main_v6) = Cert.Spec.gathered (queries0 m c) (items0 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v6 (Pipeline.mem_restRefs_of main_v6 (by decide) (by decide))).trans (tail_eq m c (hfin c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.lean ====
/-
  The certificate of a floor-indexed gather: `out[n] = items[bucket(indices[n])]`, for 1048576 queries and a table of 1024
  rows of 256 columns, where `bucket x = int32 (min (⌊min 1 (max 0 x) · 1024⌋, 1023))`.

  The reference computes the buckets on the host and gathers the rows. The kernel re-lays the queries as 4096 rows of 256,
  splits the table into the table itself (after a change of float format) and a residual — the table minus itself — and,
  32 query rows per grid point, builds for each row a one-hot matrix of its 256 buckets and multiplies it into both tables,
  adding the two products. Over the extended reals a change of float format is the identity, a one-hot product keeps exactly
  one row (only `0 · x = 0` and `1 · x = x` are used), and the residual is zero because every item is a real number: that is
  the one place the precondition is used, since `x - x` is not `0` at an infinity. The bucket lies in `[0, 1023]` for every
  extended real query, so the reference's wrap-around of negative indices and its clamping never act.

  The three frames are the generated ones (the reference's is its generated run with the result dropped); the kernel
  idealization rewrote nothing, so `preserves` is `True`; `algebraic` puts the kernel's run and the reference's run side by
  side at the same function of the arguments.
-/
import proofs.«160295_j24515673325873_2_alg».proof.Defs
import proofs.«160295_j24515673325873_2_alg».proof.Proof.Gen.Kernel
import proofs.«160295_j24515673325873_2_alg».proof.Proof.Gen.Kernel.Skeleton
import proofs.«160295_j24515673325873_2_alg».proof.Proof.Gen.Kernel.Loops
import proofs.«160295_j24515673325873_2_alg».proof.Proof.Gen.Kernel.Launch
import proofs.«160295_j24515673325873_2_alg».proof.Proof.Gen.Kernel.Points
import proofs.«160295_j24515673325873_2_alg».proof.Proof.Gen.Kernel.Frame
import proofs.«160295_j24515673325873_2_alg».proof.Proof.Gen.KernelIdeal
import proofs.«160295_j24515673325873_2_alg».proof.Proof.Gen.KernelIdeal.Skeleton
import proofs.«160295_j24515673325873_2_alg».proof.Proof.Gen.KernelIdeal.Loops
import proofs.«160295_j24515673325873_2_alg».proof.Proof.Gen.KernelIdeal.Launch
import proofs.«160295_j24515673325873_2_alg».proof.Proof.Gen.KernelIdeal.Points
import proofs.«160295_j24515673325873_2_alg».proof.Proof.Gen.KernelIdeal.Frame
import proofs.«160295_j24515673325873_2_alg».proof.Proof.Gen.ReferenceIdeal
import proofs.«160295_j24515673325873_2_alg».proof.Proof.Gen.ReferenceIdeal.Run
import proofs.«160295_j24515673325873_2_alg».proof.Proof.Gen.ReferenceIdeal.Read
import proofs.«160295_j24515673325873_2_alg».proof.Proof.Gen.Pre_finite_inputs
import proofs.«160295_j24515673325873_2_alg».proof.Proof.RefRead
import proofs.«160295_j24515673325873_2_alg».proof.Proof.FiniteItems
import proofs.«160295_j24515673325873_2_alg».proof.Proof.Whole
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at `Spec.gathered` of the argument arrays: the kernel by its run read block by block
    (every item a real number, from the precondition), the reference by its run read operation by operation. -/
theorem algebraic : Cert.algebraic_KernelIdeal_ReferenceIdeal := by
  intro m ρ m' ρ' hpre hagree
  have hfin : ∀ c j, ∃ r : ℝ, Cert.KernelIdeal.Whole.items0 m c j = (r : EReal) :=
    fun c => Cert.FiniteItems.items_real _ _ (hpre c)
  refine ⟨fun c => Cert.Spec.gathered (Cert.KernelIdeal.Whole.queries0 m c) (Cert.KernelIdeal.Whole.items0 m c),
    Cert.KernelIdeal.Whole.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefRead.val_eq_gathered,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
